-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x1 : Shape := ⟨2, ![65536, 1]⟩
abbrev S256x256 : Shape := ⟨2, ![256, 256]⟩
abbrev S1x256 : Shape := ⟨2, ![1, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part3 {F : FTy → Type} [FloatOps F] (main_arg11 : FVec F S1x256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S1x256 .f32 := Host.absf main_arg11
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  main_v58

def fn_part2 {F : FTy → Type} [FloatOps F] (main_arg7 : FVec F S256x256 .f32) (main_arg8 : FVec F S1x256 .f32) (main_arg9 : FVec F S256x256 .f32) (main_arg10 : FVec F S256x256 .f32) (main_arg11 : FVec F S1x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S1x256 .f32 := Host.absf main_arg8
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_v48 main_v49 main_v50

def fn_part1 {F : FTy → Type} [FloatOps F] (main_arg4 : FVec F S256x256 .f32) (main_arg5 : FVec F S1x256 .f32) (main_arg6 : FVec F S256x256 .f32) (main_arg7 : FVec F S256x256 .f32) (main_arg8 : FVec F S1x256 .f32) (main_arg9 : FVec F S256x256 .f32) (main_arg10 : FVec F S256x256 .f32) (main_arg11 : FVec F S1x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x256 .f32) (main_arg1 : FVec F S65536x256 .f32) (main_arg2 : FVec F S65536x1 .f32) (main_arg3 : FVec F S256x256 .f32) (main_arg4 : FVec F S256x256 .f32) (main_arg5 : FVec F S1x256 .f32) (main_arg6 : FVec F S256x256 .f32) (main_arg7 : FVec F S256x256 .f32) (main_arg8 : FVec F S1x256 .f32) (main_arg9 : FVec F S256x256 .f32) (main_arg10 : FVec F S256x256 .f32) (main_arg11 : FVec F S1x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x1 .f32 := Host.absf main_arg2
  let main_cst_2 : FVec F S_ .f32 := constant S_ .f32 0x7F800000#32
  let main_v10 : FVec F S65536x1 .f32 := broadcastInDim S65536x1 ![] bcast_S_S65536x1 main_cst_2
  let main_v11 : IVec S65536x1 1 := cmpf .olt main_v9 main_v10
  let main_c_3 : IVec S_ 1 := constantI S_ 1 1#1
  let main_v12 : IVec S_ 1 := (fun x v => Host.reduce IntOp.andi x v reducesTo_S65536x1_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_v13 main_v16
-- ==== Kernel.lean ====
abbrev S65536x256 : Shape := ⟨2, ![65536, 256]⟩
abbrev S65536x1 : Shape := ⟨2, ![65536, 1]⟩
abbrev S256x256 : Shape := ⟨2, ![256, 256]⟩
abbrev S1x256 : Shape := ⟨2, ![1, 256]⟩
abbrev S256x768 : Shape := ⟨2, ![256, 768]⟩
abbrev S1x768 : Shape := ⟨2, ![1, 768]⟩
abbrev S2048x256 : Shape := ⟨2, ![2048, 256]⟩
abbrev S2048x1 : Shape := ⟨2, ![2048, 1]⟩
abbrev S2048x768 : Shape := ⟨2, ![2048, 768]⟩

abbrev nBuf : Space → Nat
  | .hbm => 18
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x1, .f32⟩
  | .hbm, ⟨3, _⟩ => ⟨S256x256, .f32⟩
  | .hbm, ⟨4, _⟩ => ⟨S256x256, .f32⟩
  | .hbm, ⟨5, _⟩ => ⟨S1x256, .f32⟩
  | .hbm, ⟨6, _⟩ => ⟨S256x256, .f32⟩
  | .hbm, ⟨7, _⟩ => ⟨S256x256, .f32⟩
  | .hbm, ⟨8, _⟩ => ⟨S1x256, .f32⟩
  | .hbm, ⟨9, _⟩ => ⟨S256x256, .f32⟩
  | .hbm, ⟨10, _⟩ => ⟨S256x256, .f32⟩
  | .hbm, ⟨11, _⟩ => ⟨S1x256, .f32⟩
  | .hbm, ⟨12, _⟩ => ⟨S256x768, .f32⟩
  | .hbm, ⟨13, _⟩ => ⟨S256x768, .bf16⟩
  | .hbm, ⟨14, _⟩ => ⟨S256x768, .f32⟩
  | .hbm, ⟨15, _⟩ => ⟨S256x768, .bf16⟩
  | .hbm, ⟨16, _⟩ => ⟨S1x768, .f32⟩
  | .hbm, ⟨17, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x1, .f32⟩
  | .local _ .vmem, ⟨5, _⟩ => ⟨S2048x1, .f32⟩
  | .local _ .vmem, ⟨6, _⟩ => ⟨S256x768, .bf16⟩
  | .local _ .vmem, ⟨7, _⟩ => ⟨S256x768, .bf16⟩
  | .local _ .vmem, ⟨8, _⟩ => ⟨S1x768, .f32⟩
  | .local _ .vmem, ⟨9, _⟩ => ⟨S2048x256, .f32⟩
  | .local _ .vmem, ⟨10, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S256x256_S256x256_S256x256_S256x768_d1 : Shape.Concatenates [S256x256, S256x256, S256x256] S256x768 1
  bitsLt_bf16_f32 : FTy.bits .bf16 < FTy.bits .f32
  concatenates_S1x256_S1x256_S1x256_S1x768_d1 : Shape.Concatenates [S1x256, S1x256, S1x256] S1x768 1
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  slices_S2048x768_o0_0_S2048x256 : S2048x768.Slices ![0, 0] S2048x256
  slices_S1x768_o0_0_S1x256 : S1x768.Slices ![0, 0] S1x256
  broadcasts_S1x256_S2048x256 : S1x256.Broadcasts S2048x256
  slices_S2048x768_o0_256_S2048x256 : S2048x768.Slices ![0, 256] S2048x256
  slices_S1x768_o0_256_S1x256 : S1x768.Slices ![0, 256] S1x256
  slices_S2048x768_o0_512_S2048x256 : S2048x768.Slices ![0, 512] S2048x256
  slices_S1x768_o0_512_S1x256 : S1x768.Slices ![0, 512] S1x256
  broadcasts_S2048x1_S2048x256 : S2048x1.Broadcasts S2048x256
  dot_S2048x256_S256x768_S2048x768_1_0_0_1_n_n_wf : DotDims.WF S2048x256 S256x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S65536x256.size a
  hwx0_6 : ∀ i : grid0.Coords, EltTy.bits .f32 = 32 ∨ (Rect.block (s := S65536x256) S2048x256.size (cc0_transform_6 i) (hinb0_6 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x1 : Shape := ⟨2, ![65536, 1]⟩
abbrev S256x256 : Shape := ⟨2, ![256, 256]⟩
abbrev S1x256 : Shape := ⟨2, ![1, 256]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x1, .f32⟩
  | .hbm, ⟨3, _⟩ => ⟨S256x256, .f32⟩
  | .hbm, ⟨4, _⟩ => ⟨S256x256, .f32⟩
  | .hbm, ⟨5, _⟩ => ⟨S1x256, .f32⟩
  | .hbm, ⟨6, _⟩ => ⟨S256x256, .f32⟩
  | .hbm, ⟨7, _⟩ => ⟨S256x256, .f32⟩
  | .hbm, ⟨8, _⟩ => ⟨S1x256, .f32⟩
  | .hbm, ⟨9, _⟩ => ⟨S256x256, .f32⟩
  | .hbm, ⟨10, _⟩ => ⟨S256x256, .f32⟩
  | .hbm, ⟨11, _⟩ => ⟨S1x256, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S_, .f32⟩
  | .hbm, ⟨33, _⟩ => ⟨S65536x256, .f32⟩
  | .hbm, ⟨34, _⟩ => ⟨S65536x256, .f32⟩
  | .hbm, ⟨35, _⟩ => ⟨S_, .f32⟩
  | .hbm, ⟨36, _⟩ => ⟨S65536x256, .f32⟩
  | .hbm, ⟨37, _⟩ => ⟨S65536x256, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S_, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S65536x1_S65536x256_0_1 : S65536x1.BroadcastsInDim S65536x256 (![0, 1] : Fin 2 → Fin S65536x256.rank)
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.BitsEntry.lean ====
/-
  The attention-gated recurrent cell, program as compiled (floats as bit patterns): what the grid finds in memory.

  Before the grid starts the program packs the three input-side weight matrices side by side into one
  256×768 matrix, narrows it to the matrix unit's input format, does the same for the three state-side
  matrices, and packs the three bias rows into one 1×768 row. Nothing else happens before the grid, so every
  buffer other than those five results is still what the caller passed.
-/
import proofs.«178404_j29214367547613_2_alg».proof.Proof.Gen.Kernel.Launch
import Idealize.ShloMosaic.Lib.Pipeline.Frame
import Idealize.ShloMosaic.Lib.StableHlo.Run

noncomputable section

namespace Cert.Kernel.Entry

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- The contents of core `c`'s buffers at the moment the grid starts: the launch memory with the three
    concatenations and the two narrowings applied, in program order. -/
abbrev atEntry (c : Dev nD) (b : Ref sig .tc) : Buf (Elt F) ((c : Thread nD τ).loc b) :=
  StableHlo.after hostOps0 (fun b => m (c, b)) b

/-- None of the five operations allocates a buffer. -/
theorem prefix_allocates_nothing : (hostOps0 : List (HloOp τ sig (Elt F))).Forall fun op => op.fresh = ∅ := by
  simp only [List.Forall]; repeat' constructor

/-- The program is those five operations followed by the grid, so the grid starts from `atEntry`. -/
theorem main_reaches_grid (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- The only buffers the five operations write are the packed matrices (wide and narrowed) and the packed bias. -/
theorem prefix_writes :
    (hostOps0 : List (HloOp τ sig (Elt F))).Forall fun op =>
      op.writes ⊆ (([main_v0, main_v1, main_v2, main_v3, main_v4] : List (Ref sig .tc)).map (Proc.devRef (τ := τ) .tc)).toFinset := by
  simp only [hostOps0, List.Forall, StableHlo.unary_writes, StableHlo.nary_writes, List.map_cons, List.map_nil,
    List.toFinset_cons, List.toFinset_nil, Finset.singleton_subset_iff, Finset.mem_insert, Finset.mem_singleton,
    true_or, or_true, and_self]

/-- Hence a buffer that is none of those five is found by the grid as it was launched. -/
theorem atEntry_of_not_written (c : Dev nD) (b : Ref sig .tc)
    (hb : b ∉ ([main_v0, main_v1, main_v2, main_v3, main_v4] : List (Ref sig .tc))) :
    atEntry m c b = m ((c : Thread nD τ).loc b) :=
  StableHlo.after_of_writes_sub hostOps0 (fun b => m (c, b)) prefix_writes hb

theorem atEntry_arg0 (c : Dev nD) : atEntry m c main_arg0 = m ((c : Thread nD τ).loc main_arg0) := atEntry_of_not_written m c _ (by decide)
theorem atEntry_arg1 (c : Dev nD) : atEntry m c main_arg1 = m ((c : Thread nD τ).loc main_arg1) := atEntry_of_not_written m c _ (by decide)
theorem atEntry_arg2 (c : Dev nD) : atEntry m c main_arg2 = m ((c : Thread nD τ).loc main_arg2) := atEntry_of_not_written m c _ (by decide)
theorem atEntry_arg3 (c : Dev nD) : atEntry m c main_arg3 = m ((c : Thread nD τ).loc main_arg3) := atEntry_of_not_written m c _ (by decide)
theorem atEntry_arg4 (c : Dev nD) : atEntry m c main_arg4 = m ((c : Thread nD τ).loc main_arg4) := atEntry_of_not_written m c _ (by decide)
theorem atEntry_arg5 (c : Dev nD) : atEntry m c main_arg5 = m ((c : Thread nD τ).loc main_arg5) := atEntry_of_not_written m c _ (by decide)
theorem atEntry_arg6 (c : Dev nD) : atEntry m c main_arg6 = m ((c : Thread nD τ).loc main_arg6) := atEntry_of_not_written m c _ (by decide)
theorem atEntry_arg7 (c : Dev nD) : atEntry m c main_arg7 = m ((c : Thread nD τ).loc main_arg7) := atEntry_of_not_written m c _ (by decide)
theorem atEntry_arg8 (c : Dev nD) : atEntry m c main_arg8 = m ((c : Thread nD τ).loc main_arg8) := atEntry_of_not_written m c _ (by decide)
theorem atEntry_arg9 (c : Dev nD) : atEntry m c main_arg9 = m ((c : Thread nD τ).loc main_arg9) := atEntry_of_not_written m c _ (by decide)
theorem atEntry_arg10 (c : Dev nD) : atEntry m c main_arg10 = m ((c : Thread nD τ).loc main_arg10) := atEntry_of_not_written m c _ (by decide)
theorem atEntry_arg11 (c : Dev nD) : atEntry m c main_arg11 = m ((c : Thread nD τ).loc main_arg11) := atEntry_of_not_written m c _ (by decide)

end Cert.Kernel.Entry

end
-- ==== Proof.BitsBody.lean ====
/-
  The attention-gated recurrent cell, program as compiled (floats as bit patterns): one grid step.

  A step of the grid works on a tile of 2048 rows: it loads the tile of the input x, the tile of the previous
  state h, the tile of the attention column a, the two packed 256×768 weight matrices and the packed bias row,
  computes the gated update of those 2048 rows, and stores it over the whole output tile. Only termination,
  absence of faults and which buffers are written matter here, so the arithmetic stays an opaque function of the tiles.
-/
import proofs.«178404_j29214367547613_2_alg».proof.Proof.Gen.Kernel.Launch
import proofs.«178404_j29214367547613_2_alg».proof.Proof.Gen.Kernel.Skeleton
import proofs.«178404_j29214367547613_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- Every access of the body is through the full rectangle of its buffer, at offset zero in both axes. -/
theorem offsets_zero : (![0, 0] : Fin 2 → Nat) = fun _ => 0 := by
  funext a; fin_cases a <;> rfl

/-- The one store covers the whole output tile. -/
theorem store_covers (p : Vec F S2048x256 .f32) (y : S2048x256.Idx) :
    ∃ pc ∈ ([⟨Rect.unit (s := S2048x256) ![0, 0] S2048x256.size inb_S2048x256_S2048x256_0_0, p⟩] :
      List (View.Piece (Elt F) S2048x256 .f32)), y ∈ pc.1.set :=
  View.cover_of_tiled [⟨Rect.unit (s := S2048x256) ![0, 0] S2048x256.size inb_S2048x256_S2048x256_0_0, p⟩] S2048x256.size (by rfl) y

set_option maxHeartbeats 1000000 in
/-- One grid step. Given the six input tiles at contents `x0 … x5` and the output tile at any contents, the body
    terminates without a fault, leaves the six inputs as they were, and leaves in the output tile the gated update
    `k0_pay1 x0 … x5` of those tiles. (The body also reads the output tile once before overwriting it; the value read
    is used nowhere.) -/
theorem step (c : Dev nD) (E : Set ℕ) (i : grid0.Coords)
    (a1 : Memref sig .tc .vmem S2048x256 .f32) (h1 : a1.IsWhole) (a2 : Memref sig .tc .vmem S2048x256 .f32) (h2 : a2.IsWhole)
    (a3 : Memref sig .tc .vmem S2048x1 .f32) (h3 : a3.IsWhole) (a4 : Memref sig .tc .vmem S256x768 .bf16) (h4 : a4.IsWhole)
    (a5 : Memref sig .tc .vmem S256x768 .bf16) (h5 : a5.IsWhole) (a6 : Memref sig .tc .vmem S1x768 .f32) (h6 : a6.IsWhole)
    (a7 : Memref sig .tc .vmem S2048x256 .f32) (h7 : a7.IsWhole)
    (x0 x1 : Vec F S2048x256 .f32) (x2 : Vec F S2048x1 .f32) (x3 x4 : Vec F S256x768 .bf16) (x5 : Vec F S1x768 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (k0_pay1 x0 x1 x2 x3 x4 x5)) -∗ K ⟨⟩))
      ⊢ wp frame (wpE (defs₀ (F := F)) Variants.none c none) E (cc0__augru_kernel i a1 h1 a2 h2 a3 h3 a4 h4 a5 h5 a6 h6 a7 h7) K := by
  simp only [cc0__augru_kernel_eq_skeleton]; unfold cc0__augru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (store_covers _)).trans ?_
  rw [View.canon_unit_zero offsets_zero]
  sl_unfold_words
  simp only [View.readAt_eq_ld, View.ld_unit_zero (S := S2048x256) offsets_zero, View.ld_unit_zero (S := S2048x1) offsets_zero,
    View.ld_unit_zero (S := S256x768) offsets_zero, View.ld_unit_zero (S := S1x768) offsets_zero]

end Cert.Kernel.Body

end
-- ==== Proof.BitsRun.lean ====
/-
  The attention-gated recurrent cell, program as compiled (floats as bit patterns): the grid of 32 steps, and the
  run of the whole program.

  Step t of the grid handles rows 2048·t … 2048·t + 2047. The pipeline stages the step's tiles of x, h and a (fetched
  at every step), the packed weights and bias (fetched once, kept afterwards), runs the body, and writes the output
  tile back to rows 2048·t … of the result.
-/
import proofs.«178404_j29214367547613_2_alg».proof.Proof.BitsEntry
import proofs.«178404_j29214367547613_2_alg».proof.Proof.BitsBody
import Idealize.ShloMosaic.Lib.Pipeline.Frame
import Idealize.ShloMosaic.Lib.Pipeline.FrameBody

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Entry

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Tiles -/

/-- The tile of operand `w` that grid step `t` works on, cut out of the operand's array as the grid found it. -/
def tile (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The gated update of the 2048 rows of step `t`: the body's arithmetic applied to the step's six input tiles. -/
def updated (c : Dev nD) (t : Fin cfg0.N) : Vec F S2048x256 .f32 :=
  k0_pay1 (tile m c 0 t) (tile m c 1 t) (tile m c 2 t) (tile m c 3 t) (tile m c 4 t) (tile m c 5 t)

/-! ## What each staging buffer holds after each step -/

/-- After step `t` each input's staging buffer still holds the step's tile of that input, and the output's staging
    buffer holds the updated rows. The body uses no scratch memory, holds no semaphore and owes nothing. -/
def dats (_ : Fin 1) (c : Dev nD) : Dat τ (Elt F) Unit ℕ (UR sig nD τ) ℕ cfg0 c where
  A w := atEntry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => updated m c t
  Φ _ := Pipeline.ΦA spec0 c
  q _ := fullShare
  owed _ := 0

theorem arrays_at_entry (c : Dev nD) (w : Fin cfg0.W) : (dats m 0 c).A w = atEntry m c (Pipeline.arrRef spec0 w) := by
  dsimp only [dats]

theorem after_x (c : Dev nD) (t : Fin cfg0.N) : (dats m 0 c).after 0 t = tile m c 0 t := by dsimp only [dats]
theorem after_h (c : Dev nD) (t : Fin cfg0.N) : (dats m 0 c).after 1 t = tile m c 1 t := by dsimp only [dats]
theorem after_a (c : Dev nD) (t : Fin cfg0.N) : (dats m 0 c).after 2 t = tile m c 2 t := by dsimp only [dats]
theorem after_W (c : Dev nD) (t : Fin cfg0.N) : (dats m 0 c).after 3 t = tile m c 3 t := by dsimp only [dats]
theorem after_U (c : Dev nD) (t : Fin cfg0.N) : (dats m 0 c).after 4 t = tile m c 4 t := by dsimp only [dats]
theorem after_b (c : Dev nD) (t : Fin cfg0.N) : (dats m 0 c).after 5 t = tile m c 5 t := by dsimp only [dats]
theorem after_out (c : Dev nD) (t : Fin cfg0.N) : (dats m 0 c).after 6 t = updated m c t := by dsimp only [dats]

/-! ## What the body finds in each input's staging buffer

  The tiles of x, h and a are fetched at every step. The packed weights and the packed bias are fetched at the first
  step only; at a later step their staging buffer holds what the previous step left there, which is the same tile,
  because their tile index never moves and the body does not write them. -/

theorem before_x (c : Dev nD) (t : Fin cfg0.N) (d) : (dats m 0 c).before 0 t d = tile m c 0 t :=
  ((dats m 0 c).before_in_eq_fetched 0 rfl (fun _ => rfl) (fun _ _ _ => rfl)
    (fun t => by rw [after_x]; unfold Dat.blockOf tile; rw [arrays_at_entry]; try rfl) t d).trans
    (by unfold Dat.fetched Dat.blockOf tile; rw [arrays_at_entry]; try rfl)
theorem before_h (c : Dev nD) (t : Fin cfg0.N) (d) : (dats m 0 c).before 1 t d = tile m c 1 t :=
  ((dats m 0 c).before_in_eq_fetched 1 rfl (fun _ => rfl) (fun _ _ _ => rfl)
    (fun t => by rw [after_h]; unfold Dat.blockOf tile; rw [arrays_at_entry]; try rfl) t d).trans
    (by unfold Dat.fetched Dat.blockOf tile; rw [arrays_at_entry]; try rfl)
theorem before_a (c : Dev nD) (t : Fin cfg0.N) (d) : (dats m 0 c).before 2 t d = tile m c 2 t :=
  ((dats m 0 c).before_in_eq_fetched 2 rfl (fun _ => rfl) (fun _ _ _ => rfl)
    (fun t => by rw [after_a]; unfold Dat.blockOf tile; rw [arrays_at_entry]; try rfl) t d).trans
    (by unfold Dat.fetched Dat.blockOf tile; rw [arrays_at_entry]; try rfl)
theorem before_W (c : Dev nD) (t : Fin cfg0.N) (d) : (dats m 0 c).before 3 t d = tile m c 3 t :=
  ((dats m 0 c).before_in_eq_fetched 3 rfl (fun _ => rfl) (fun _ _ _ => rfl)
    (fun t => by rw [after_W]; unfold Dat.blockOf tile; rw [arrays_at_entry]; try rfl) t d).trans
    (by unfold Dat.fetched Dat.blockOf tile; rw [arrays_at_entry]; try rfl)
theorem before_U (c : Dev nD) (t : Fin cfg0.N) (d) : (dats m 0 c).before 4 t d = tile m c 4 t :=
  ((dats m 0 c).before_in_eq_fetched 4 rfl (fun _ => rfl) (fun _ _ _ => rfl)
    (fun t => by rw [after_U]; unfold Dat.blockOf tile; rw [arrays_at_entry]; try rfl) t d).trans
    (by unfold Dat.fetched Dat.blockOf tile; rw [arrays_at_entry]; try rfl)
theorem before_b (c : Dev nD) (t : Fin cfg0.N) (d) : (dats m 0 c).before 5 t d = tile m c 5 t :=
  ((dats m 0 c).before_in_eq_fetched 5 rfl (fun _ => rfl) (fun _ _ _ => rfl)
    (fun t => by rw [after_b]; unfold Dat.blockOf tile; rw [arrays_at_entry]; try rfl) t d).trans
    (by unfold Dat.fetched Dat.blockOf tile; rw [arrays_at_entry]; try rfl)

/-! ## The body at every step -/

/-- What the body is handed at step `t`: the invariant, the (empty) debt, and the seven current staging buffers. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- Every input buffer holds the step's tile, so the one-step lemma applies; the invariant and the debt are not
    touched. -/
theorem step_at (c : Dev nD) (t : Fin cfg0.N) :
    handed m c t ⊢ wp frame (wpE (defs₀ (F := F)) Variants.none c none) Set.univ (bodyAt0 t) (fun _ => returned m c t) := by
  unfold handed returned bodyAt0
  simp only [before_x, before_h, before_a, before_W, before_U, before_b]
  rw [show (dats m 0 c).Φ t.succ = (dats m 0 c).Φ t.castSucc from rfl,
    show (dats m 0 c).owesAt () t.succ = (dats m 0 c).owesAt () t.castSucc from rfl,
    after_x, after_h, after_a, after_W, after_U, after_b, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Cert.Kernel.Body.step c Set.univ _ _ _ _ _ _ _ _ _ _ _ _ _ _ _
    (tile m c 0 t) (tile m c 1 t) (tile m c 2 t) (tile m c 3 t) (tile m c 4 t) (tile m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem every_step (c : Dev nD) : BodyObligation (dats (F := F) m 0 c) (defs₀ (F := F)) Variants.none () Set.univ := fun t => by
  rw [bigSep_W0, bigSep_W0]
  exact step_at m c t

/-! ## The whole run -/

set_option backward.isDefEq.respectTransparency.types false in
/-- Every weakly fair execution of the program terminates without a fault. At the end each operand of the grid holds
    what the write-backs made of it (an input: what the grid found), and every other buffer of the device is as the grid
    found it. -/
theorem run : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (every_step m c).loose) (hshare := fun c => (dats m 0 c).share_full fun _ => rfl)
    (howed := fun _ _ => rfl) (V := atEntry m) (hmain := main_reaches_grid m Variants.none) (hA := arrays_at_entry m)
    (hΦ := fun _ _ => rfl)

/-- The nine weight and bias arguments are neither staged by the grid nor local to it. -/
theorem bypass (b : Ref sig .tc) (hs : b.isScoped = false) (ha : ∀ w, (spec0 w).arr.view.ref ≠ b) :
    b ∈ Pipeline.restRefs sig spec0 := Pipeline.mem_restRefs_of b hs ha

/-- In any final state of the run the twelve argument arrays are as they were launched: x, h and a are inputs of the
    grid and are never written back; the nine weights and biases bypass the grid; and the operations before the grid
    write none of the twelve. -/
theorem post_keeps_arguments (r : PUnit × MemSt nD τ sig (Elt F))
    (h : Pipeline.FramePost cfgs (dats m) 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats m 0 c).arrAt_in 0 rfl _).trans ((arrays_at_entry m c 0).trans (atEntry_arg0 m c))),
   ((h c).1 1).trans (((dats m 0 c).arrAt_in 1 rfl _).trans ((arrays_at_entry m c 1).trans (atEntry_arg1 m c))),
   ((h c).1 2).trans (((dats m 0 c).arrAt_in 2 rfl _).trans ((arrays_at_entry m c 2).trans (atEntry_arg2 m c))),
   ((h c).2 main_arg3 (bypass _ rfl (by decide))).trans (atEntry_arg3 m c),
   ((h c).2 main_arg4 (bypass _ rfl (by decide))).trans (atEntry_arg4 m c),
   ((h c).2 main_arg5 (bypass _ rfl (by decide))).trans (atEntry_arg5 m c),
   ((h c).2 main_arg6 (bypass _ rfl (by decide))).trans (atEntry_arg6 m c),
   ((h c).2 main_arg7 (bypass _ rfl (by decide))).trans (atEntry_arg7 m c),
   ((h c).2 main_arg8 (bypass _ rfl (by decide))).trans (atEntry_arg8 m c),
   ((h c).2 main_arg9 (bypass _ rfl (by decide))).trans (atEntry_arg9 m c),
   ((h c).2 main_arg10 (bypass _ rfl (by decide))).trans (atEntry_arg10 m c),
   ((h c).2 main_arg11 (bypass _ rfl (by decide))).trans (atEntry_arg11 m c)⟩

/-- The program terminates without a fault and leaves its twelve arguments unchanged. -/
theorem arguments_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => post_keeps_arguments m r h c) (run m ρ)

end Cert.Kernel.Run

end
-- ==== Proof.IdealEntry.lean ====
/-
  The attention-gated recurrent cell, idealized program: what the grid finds in memory.

  Before the grid starts the program packs the three input-side weight matrices side by side into one
  256×768 matrix, narrows it to the matrix unit's input format, does the same for the three state-side
  matrices, and packs the three bias rows into one 1×768 row. Nothing else happens before the grid, so every
  buffer other than those five results is still what the caller passed.
-/
import proofs.«178404_j29214367547613_2_alg».proof.Proof.Gen.KernelIdeal.Launch
import Idealize.ShloMosaic.Lib.Pipeline.Frame
import Idealize.ShloMosaic.Lib.StableHlo.Run

noncomputable section

namespace Cert.KernelIdeal.Entry

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The contents of core `c`'s buffers at the moment the grid starts: the launch memory with the three
    concatenations and the two narrowings applied, in program order. -/
abbrev atEntry (c : Dev nD) (b : Ref sig .tc) : Buf (Elt F) ((c : Thread nD τ).loc b) :=
  StableHlo.after hostOps0 (fun b => m (c, b)) b

/-- None of the five operations allocates a buffer. -/
theorem prefix_allocates_nothing : (hostOps0 : List (HloOp τ sig (Elt F))).Forall fun op => op.fresh = ∅ := by
  simp only [List.Forall]; repeat' constructor

/-- The program is those five operations followed by the grid, so the grid starts from `atEntry`. -/
theorem main_reaches_grid (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- The only buffers the five operations write are the packed matrices (wide and narrowed) and the packed bias. -/
theorem prefix_writes :
    (hostOps0 : List (HloOp τ sig (Elt F))).Forall fun op =>
      op.writes ⊆ (([main_v0, main_v1, main_v2, main_v3, main_v4] : List (Ref sig .tc)).map (Proc.devRef (τ := τ) .tc)).toFinset := by
  simp only [hostOps0, List.Forall, StableHlo.unary_writes, StableHlo.nary_writes, List.map_cons, List.map_nil,
    List.toFinset_cons, List.toFinset_nil, Finset.singleton_subset_iff, Finset.mem_insert, Finset.mem_singleton,
    true_or, or_true, and_self]

/-- Hence a buffer that is none of those five is found by the grid as it was launched. -/
theorem atEntry_of_not_written (c : Dev nD) (b : Ref sig .tc)
    (hb : b ∉ ([main_v0, main_v1, main_v2, main_v3, main_v4] : List (Ref sig .tc))) :
    atEntry m c b = m ((c : Thread nD τ).loc b) :=
  StableHlo.after_of_writes_sub hostOps0 (fun b => m (c, b)) prefix_writes hb

theorem atEntry_arg0 (c : Dev nD) : atEntry m c main_arg0 = m ((c : Thread nD τ).loc main_arg0) := atEntry_of_not_written m c _ (by decide)
theorem atEntry_arg1 (c : Dev nD) : atEntry m c main_arg1 = m ((c : Thread nD τ).loc main_arg1) := atEntry_of_not_written m c _ (by decide)
theorem atEntry_arg2 (c : Dev nD) : atEntry m c main_arg2 = m ((c : Thread nD τ).loc main_arg2) := atEntry_of_not_written m c _ (by decide)
theorem atEntry_arg3 (c : Dev nD) : atEntry m c main_arg3 = m ((c : Thread nD τ).loc main_arg3) := atEntry_of_not_written m c _ (by decide)
theorem atEntry_arg4 (c : Dev nD) : atEntry m c main_arg4 = m ((c : Thread nD τ).loc main_arg4) := atEntry_of_not_written m c _ (by decide)
theorem atEntry_arg5 (c : Dev nD) : atEntry m c main_arg5 = m ((c : Thread nD τ).loc main_arg5) := atEntry_of_not_written m c _ (by decide)
theorem atEntry_arg6 (c : Dev nD) : atEntry m c main_arg6 = m ((c : Thread nD τ).loc main_arg6) := atEntry_of_not_written m c _ (by decide)
theorem atEntry_arg7 (c : Dev nD) : atEntry m c main_arg7 = m ((c : Thread nD τ).loc main_arg7) := atEntry_of_not_written m c _ (by decide)
theorem atEntry_arg8 (c : Dev nD) : atEntry m c main_arg8 = m ((c : Thread nD τ).loc main_arg8) := atEntry_of_not_written m c _ (by decide)
theorem atEntry_arg9 (c : Dev nD) : atEntry m c main_arg9 = m ((c : Thread nD τ).loc main_arg9) := atEntry_of_not_written m c _ (by decide)
theorem atEntry_arg10 (c : Dev nD) : atEntry m c main_arg10 = m ((c : Thread nD τ).loc main_arg10) := atEntry_of_not_written m c _ (by decide)
theorem atEntry_arg11 (c : Dev nD) : atEntry m c main_arg11 = m ((c : Thread nD τ).loc main_arg11) := atEntry_of_not_written m c _ (by decide)

end Cert.KernelIdeal.Entry

end
-- ==== Proof.IdealBody.lean ====
/-
  The attention-gated recurrent cell, idealized program: one grid step.

  A step of the grid works on a tile of 2048 rows: it loads the tile of the input x, the tile of the previous
  state h, the tile of the attention column a, the two packed 256×768 weight matrices and the packed bias row,
  computes the gated update of those 2048 rows, and stores it over the whole output tile.
-/
import proofs.«178404_j29214367547613_2_alg».proof.Proof.Gen.KernelIdeal.Launch
import proofs.«178404_j29214367547613_2_alg».proof.Proof.Gen.KernelIdeal.Skeleton
import proofs.«178404_j29214367547613_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- Every access of the body is through the full rectangle of its buffer, at offset zero in both axes. -/
theorem offsets_zero : (![0, 0] : Fin 2 → Nat) = fun _ => 0 := by
  funext a; fin_cases a <;> rfl

/-- The one store covers the whole output tile. -/
theorem store_covers (p : Vec F S2048x256 .f32) (y : S2048x256.Idx) :
    ∃ pc ∈ ([⟨Rect.unit (s := S2048x256) ![0, 0] S2048x256.size inb_S2048x256_S2048x256_0_0, p⟩] :
      List (View.Piece (Elt F) S2048x256 .f32)), y ∈ pc.1.set :=
  View.cover_of_tiled [⟨Rect.unit (s := S2048x256) ![0, 0] S2048x256.size inb_S2048x256_S2048x256_0_0, p⟩] S2048x256.size (by rfl) y

set_option maxHeartbeats 1000000 in
/-- One grid step. Given the six input tiles at contents `x0 … x5` and the output tile at any contents, the body
    terminates without a fault, leaves the six inputs as they were, and leaves in the output tile the gated update
    `k0_pay1 x0 … x5` of those tiles. (The body also reads the output tile once before overwriting it; the value read
    is used nowhere.) -/
theorem step (c : Dev nD) (E : Set ℕ) (i : grid0.Coords)
    (a1 : Memref sig .tc .vmem S2048x256 .f32) (h1 : a1.IsWhole) (a2 : Memref sig .tc .vmem S2048x256 .f32) (h2 : a2.IsWhole)
    (a3 : Memref sig .tc .vmem S2048x1 .f32) (h3 : a3.IsWhole) (a4 : Memref sig .tc .vmem S256x768 .bf16) (h4 : a4.IsWhole)
    (a5 : Memref sig .tc .vmem S256x768 .bf16) (h5 : a5.IsWhole) (a6 : Memref sig .tc .vmem S1x768 .f32) (h6 : a6.IsWhole)
    (a7 : Memref sig .tc .vmem S2048x256 .f32) (h7 : a7.IsWhole)
    (x0 x1 : Vec F S2048x256 .f32) (x2 : Vec F S2048x1 .f32) (x3 x4 : Vec F S256x768 .bf16) (x5 : Vec F S1x768 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (k0_pay1 x0 x1 x2 x3 x4 x5)) -∗ K ⟨⟩))
      ⊢ wp frame (wpE (defs₀ (F := F)) Variants.none c none) E (cc0__augru_kernel i a1 h1 a2 h2 a3 h3 a4 h4 a5 h5 a6 h6 a7 h7) K := by
  simp only [cc0__augru_kernel_eq_skeleton]; unfold cc0__augru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (store_covers _)).trans ?_
  rw [View.canon_unit_zero offsets_zero]
  sl_unfold_words
  simp only [View.readAt_eq_ld, View.ld_unit_zero (S := S2048x256) offsets_zero, View.ld_unit_zero (S := S2048x1) offsets_zero,
    View.ld_unit_zero (S := S256x768) offsets_zero, View.ld_unit_zero (S := S1x768) offsets_zero]

end Cert.KernelIdeal.Body

end
-- ==== Proof.IdealRun.lean ====
/-
  The attention-gated recurrent cell, idealized program: the grid of 32 steps, and the run of the whole program.

  Step t of the grid handles rows 2048·t … 2048·t + 2047. The pipeline stages the step's tiles of x, h and a (fetched
  at every step), the packed weights and bias (fetched once, kept afterwards), runs the body, and writes the output
  tile back to rows 2048·t … of the result.
-/
import proofs.«178404_j29214367547613_2_alg».proof.Proof.IdealEntry
import proofs.«178404_j29214367547613_2_alg».proof.Proof.IdealBody
import Idealize.ShloMosaic.Lib.Pipeline.Frame
import Idealize.ShloMosaic.Lib.Pipeline.FrameBody

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Entry

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Tiles -/

/-- The tile of operand `w` that grid step `t` works on, cut out of the operand's array as the grid found it. -/
def tile (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The gated update of the 2048 rows of step `t`: the body's arithmetic applied to the step's six input tiles. -/
def updated (c : Dev nD) (t : Fin cfg0.N) : Vec F S2048x256 .f32 :=
  k0_pay1 (tile m c 0 t) (tile m c 1 t) (tile m c 2 t) (tile m c 3 t) (tile m c 4 t) (tile m c 5 t)

/-! ## What each staging buffer holds after each step -/

/-- After step `t` each input's staging buffer still holds the step's tile of that input, and the output's staging
    buffer holds the updated rows. The body uses no scratch memory, holds no semaphore and owes nothing. -/
def dats (_ : Fin 1) (c : Dev nD) : Dat τ (Elt F) Unit ℕ (UR sig nD τ) ℕ cfg0 c where
  A w := atEntry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => updated m c t
  Φ _ := Pipeline.ΦA spec0 c
  q _ := fullShare
  owed _ := 0

theorem arrays_at_entry (c : Dev nD) (w : Fin cfg0.W) : (dats m 0 c).A w = atEntry m c (Pipeline.arrRef spec0 w) := by
  dsimp only [dats]

theorem after_x (c : Dev nD) (t : Fin cfg0.N) : (dats m 0 c).after 0 t = tile m c 0 t := by dsimp only [dats]
theorem after_h (c : Dev nD) (t : Fin cfg0.N) : (dats m 0 c).after 1 t = tile m c 1 t := by dsimp only [dats]
theorem after_a (c : Dev nD) (t : Fin cfg0.N) : (dats m 0 c).after 2 t = tile m c 2 t := by dsimp only [dats]
theorem after_W (c : Dev nD) (t : Fin cfg0.N) : (dats m 0 c).after 3 t = tile m c 3 t := by dsimp only [dats]
theorem after_U (c : Dev nD) (t : Fin cfg0.N) : (dats m 0 c).after 4 t = tile m c 4 t := by dsimp only [dats]
theorem after_b (c : Dev nD) (t : Fin cfg0.N) : (dats m 0 c).after 5 t = tile m c 5 t := by dsimp only [dats]
theorem after_out (c : Dev nD) (t : Fin cfg0.N) : (dats m 0 c).after 6 t = updated m c t := by dsimp only [dats]

/-! ## What the body finds in each input's staging buffer

  The tiles of x, h and a are fetched at every step. The packed weights and the packed bias are fetched at the first
  step only; at a later step their staging buffer holds what the previous step left there, which is the same tile,
  because their tile index never moves and the body does not write them. -/

theorem before_x (c : Dev nD) (t : Fin cfg0.N) (d) : (dats m 0 c).before 0 t d = tile m c 0 t :=
  ((dats m 0 c).before_in_eq_fetched 0 rfl (fun _ => rfl) (fun _ _ _ => rfl)
    (fun t => by rw [after_x]; unfold Dat.blockOf tile; rw [arrays_at_entry]; try rfl) t d).trans
    (by unfold Dat.fetched Dat.blockOf tile; rw [arrays_at_entry]; try rfl)
theorem before_h (c : Dev nD) (t : Fin cfg0.N) (d) : (dats m 0 c).before 1 t d = tile m c 1 t :=
  ((dats m 0 c).before_in_eq_fetched 1 rfl (fun _ => rfl) (fun _ _ _ => rfl)
    (fun t => by rw [after_h]; unfold Dat.blockOf tile; rw [arrays_at_entry]; try rfl) t d).trans
    (by unfold Dat.fetched Dat.blockOf tile; rw [arrays_at_entry]; try rfl)
theorem before_a (c : Dev nD) (t : Fin cfg0.N) (d) : (dats m 0 c).before 2 t d = tile m c 2 t :=
  ((dats m 0 c).before_in_eq_fetched 2 rfl (fun _ => rfl) (fun _ _ _ => rfl)
    (fun t => by rw [after_a]; unfold Dat.blockOf tile; rw [arrays_at_entry]; try rfl) t d).trans
    (by unfold Dat.fetched Dat.blockOf tile; rw [arrays_at_entry]; try rfl)
theorem before_W (c : Dev nD) (t : Fin cfg0.N) (d) : (dats m 0 c).before 3 t d = tile m c 3 t :=
  ((dats m 0 c).before_in_eq_fetched 3 rfl (fun _ => rfl) (fun _ _ _ => rfl)
    (fun t => by rw [after_W]; unfold Dat.blockOf tile; rw [arrays_at_entry]; try rfl) t d).trans
    (by unfold Dat.fetched Dat.blockOf tile; rw [arrays_at_entry]; try rfl)
theorem before_U (c : Dev nD) (t : Fin cfg0.N) (d) : (dats m 0 c).before 4 t d = tile m c 4 t :=
  ((dats m 0 c).before_in_eq_fetched 4 rfl (fun _ => rfl) (fun _ _ _ => rfl)
    (fun t => by rw [after_U]; unfold Dat.blockOf tile; rw [arrays_at_entry]; try rfl) t d).trans
    (by unfold Dat.fetched Dat.blockOf tile; rw [arrays_at_entry]; try rfl)
theorem before_b (c : Dev nD) (t : Fin cfg0.N) (d) : (dats m 0 c).before 5 t d = tile m c 5 t :=
  ((dats m 0 c).before_in_eq_fetched 5 rfl (fun _ => rfl) (fun _ _ _ => rfl)
    (fun t => by rw [after_b]; unfold Dat.blockOf tile; rw [arrays_at_entry]; try rfl) t d).trans
    (by unfold Dat.fetched Dat.blockOf tile; rw [arrays_at_entry]; try rfl)

/-! ## The body at every step -/

/-- What the body is handed at step `t`: the invariant, the (empty) debt, and the seven current staging buffers. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- Every input buffer holds the step's tile, so the one-step lemma applies; the invariant and the debt are not
    touched. -/
theorem step_at (c : Dev nD) (t : Fin cfg0.N) :
    handed m c t ⊢ wp frame (wpE (defs₀ (F := F)) Variants.none c none) Set.univ (bodyAt0 t) (fun _ => returned m c t) := by
  unfold handed returned bodyAt0
  simp only [before_x, before_h, before_a, before_W, before_U, before_b]
  rw [show (dats m 0 c).Φ t.succ = (dats m 0 c).Φ t.castSucc from rfl,
    show (dats m 0 c).owesAt () t.succ = (dats m 0 c).owesAt () t.castSucc from rfl,
    after_x, after_h, after_a, after_W, after_U, after_b, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Cert.KernelIdeal.Body.step c Set.univ _ _ _ _ _ _ _ _ _ _ _ _ _ _ _
    (tile m c 0 t) (tile m c 1 t) (tile m c 2 t) (tile m c 3 t) (tile m c 4 t) (tile m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem every_step (c : Dev nD) : BodyObligation (dats (F := F) m 0 c) (defs₀ (F := F)) Variants.none () Set.univ := fun t => by
  rw [bigSep_W0, bigSep_W0]
  exact step_at m c t

/-! ## The whole run -/

set_option backward.isDefEq.respectTransparency.types false in
/-- Every weakly fair execution of the program terminates without a fault. At the end each operand of the grid holds
    what the write-backs made of it (an input: what the grid found), and every other buffer of the device is as the grid
    found it. -/
theorem run : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (every_step m c).loose) (hshare := fun c => (dats m 0 c).share_full fun _ => rfl)
    (howed := fun _ _ => rfl) (V := atEntry m) (hmain := main_reaches_grid m Variants.none) (hA := arrays_at_entry m)
    (hΦ := fun _ _ => rfl)

/-- The nine weight and bias arguments are neither staged by the grid nor local to it. -/
theorem bypass (b : Ref sig .tc) (hs : b.isScoped = false) (ha : ∀ w, (spec0 w).arr.view.ref ≠ b) :
    b ∈ Pipeline.restRefs sig spec0 := Pipeline.mem_restRefs_of b hs ha

/-- In any final state of the run the twelve argument arrays are as they were launched: x, h and a are inputs of the
    grid and are never written back; the nine weights and biases bypass the grid; and the operations before the grid
    write none of the twelve. -/
theorem post_keeps_arguments (r : PUnit × MemSt nD τ sig (Elt F))
    (h : Pipeline.FramePost cfgs (dats m) 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats m 0 c).arrAt_in 0 rfl _).trans ((arrays_at_entry m c 0).trans (atEntry_arg0 m c))),
   ((h c).1 1).trans (((dats m 0 c).arrAt_in 1 rfl _).trans ((arrays_at_entry m c 1).trans (atEntry_arg1 m c))),
   ((h c).1 2).trans (((dats m 0 c).arrAt_in 2 rfl _).trans ((arrays_at_entry m c 2).trans (atEntry_arg2 m c))),
   ((h c).2 main_arg3 (bypass _ rfl (by decide))).trans (atEntry_arg3 m c),
   ((h c).2 main_arg4 (bypass _ rfl (by decide))).trans (atEntry_arg4 m c),
   ((h c).2 main_arg5 (bypass _ rfl (by decide))).trans (atEntry_arg5 m c),
   ((h c).2 main_arg6 (bypass _ rfl (by decide))).trans (atEntry_arg6 m c),
   ((h c).2 main_arg7 (bypass _ rfl (by decide))).trans (atEntry_arg7 m c),
   ((h c).2 main_arg8 (bypass _ rfl (by decide))).trans (atEntry_arg8 m c),
   ((h c).2 main_arg9 (bypass _ rfl (by decide))).trans (atEntry_arg9 m c),
   ((h c).2 main_arg10 (bypass _ rfl (by decide))).trans (atEntry_arg10 m c),
   ((h c).2 main_arg11 (bypass _ rfl (by decide))).trans (atEntry_arg11 m c)⟩

/-- The program terminates without a fault and leaves its twelve arguments unchanged. -/
theorem arguments_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => post_keeps_arguments m r h c) (run m ρ)

end Cert.KernelIdeal.Run

end
-- ==== Proof.Cell.lean ====
/-
  The attention-gated recurrent cell over the extended reals.

  For a batch of 65536 rows of width 256, with input `x`, previous state `h`, one attention weight `a` per row,
  and three pairs of 256×256 weight matrices with their bias rows, the cell computes, entry by entry,

      u  = σ(x·Wu + h·Uu + bu)                the update gate
      g  = σ(x·Wr + h·Ur + br)                the reset gate
      ĥ  = tanh(x·Wh + g ∘ (h·Uh) + bh)       the candidate state
      w  = a · u                              the attention-weighted update gate
      h' = (1 − w) ∘ h + w ∘ ĥ

  where σ is the logistic function, ∘ the entrywise product, and every matrix product is an exact sum of 256
  products. This file states that function once; the two programs are each shown to compute it.
-/
import Idealize.ShloMosaic.PureOps.Ideal
import Idealize.ShloMosaic.PureOps.Ideal.Laws
import Idealize.ShloMosaic.Lib.ValueIdx

noncomputable section

open scoped BigOperators

namespace GatedCell

open Idealize.ShloMosaic Idealize.ShloMosaic.ValueIdx

/-- The shapes of the batch arrays, the attention column, a weight matrix and a bias row. -/
abbrev Batch : Shape := ⟨2, ![65536, 256]⟩
abbrev Column : Shape := ⟨2, ![65536, 1]⟩
abbrev Square : Shape := ⟨2, ![256, 256]⟩
abbrev BiasRow : Shape := ⟨2, ![1, 256]⟩

/-- Entry (r, j) of the product of a batch array with a weight matrix: row `r` against column `j`. -/
def proj (x : Batch.Idx → EReal) (W : Square.Idx → EReal) (r : Fin 65536) (j : Fin 256) : EReal :=
  ∑ k : Fin 256, x (ix2 r k) * W (ix2 k j)

/-- Entry (r, j) of the new state. -/
def entry (x h : Batch.Idx → EReal) (a : Column.Idx → EReal)
    (Wu Uu : Square.Idx → EReal) (bu : BiasRow.Idx → EReal)
    (Wr Ur : Square.Idx → EReal) (br : BiasRow.Idx → EReal)
    (Wh Uh : Square.Idx → EReal) (bh : BiasRow.Idx → EReal) (r : Fin 65536) (j : Fin 256) : EReal :=
  (1 - a (ix2 r 0) * Ideal.logistic (proj x Wu r j + proj h Uu r j + bu (ix2 0 j))) * h (ix2 r j)
    + a (ix2 r 0) * Ideal.logistic (proj x Wu r j + proj h Uu r j + bu (ix2 0 j))
      * Ideal.tanh (proj x Wh r j + Ideal.logistic (proj x Wr r j + proj h Ur r j + br (ix2 0 j)) * proj h Uh r j + bh (ix2 0 j))

/-- The new state as one array. -/
def newState (x h : Batch.Idx → EReal) (a : Column.Idx → EReal)
    (Wu Uu : Square.Idx → EReal) (bu : BiasRow.Idx → EReal)
    (Wr Ur : Square.Idx → EReal) (br : BiasRow.Idx → EReal)
    (Wh Uh : Square.Idx → EReal) (bh : BiasRow.Idx → EReal) : Batch.Idx → EReal :=
  fun i => entry x h a Wu Uu bu Wr Ur br Wh Uh bh (i 0) (i 1)

/-- The single-precision word 0x3F800000 is the number one. Both programs write their constant one this way. -/
theorem one_word : Ideal.ofBits .f32 0x3F800000#32 = 1 := by
  simp [Ideal.ofBits, Ideal.ieee, -EReal.coe_mul]; norm_num

/-- The logistic function written out as both programs' host code spells it. -/
theorem logistic_spelled (z : EReal) : Ideal.div 1 (1 + Ideal.exp (-z)) = Ideal.logistic z := rfl

end GatedCell

end
-- ==== Proof.IdealTile.lean ====
/-
  The idealized kernel, one grid step, one entry.

  A step holds a tile X of 2048 rows of x, the same rows H of h, the same rows A of the attention column, the packed
  256×768 matrices W = [Wu | Wr | Wh] and U = [Uu | Ur | Uh], and the packed bias row B = [bu | br | bh]. It forms the
  two wide products X·W and H·U once, and reads the update gate from columns 0…255 of them, the reset gate from
  columns 256…511 and the candidate from columns 512…767. Over the extended reals every format change is the
  identity and a product into a zero accumulator is a plain sum of 256 products, so entry (p, q) of the step's
  result is the cell's formula with column q + 256·s of the packed arrays where the cell has column q of the
  s-th matrix.
-/
import proofs.«178404_j29214367547613_2_alg».proof.Proof.Gen.KernelIdeal.Skeleton
import proofs.«178404_j29214367547613_2_alg».proof.Proof.Cell
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx GatedCell

/-- Column `q` of the 256-wide band that starts at column `c` of a 768-wide array. -/
abbrev band (c : Nat) (q : Fin 256) (hc : c + 256 ≤ 768) : Fin 768 := ⟨c + q.val, by have := q.isLt; omega⟩

/-! ## The body's layout operations, read at one entry -/

theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- A bias row repeated down the 2048 rows. -/
theorem bias_down {α : Type} (v : S1x256.Idx → α) (h : S1x256.Broadcasts S2048x256) (p : Fin 2048) (q : Fin 256) :
    broadcastTo S2048x256 v h (ix2 p q) = v (ix2 0 q) :=
  broadcastTo_apply v h (ix2 p q) (ix2 0 q) (fun a => by match a with | ⟨0, _⟩ => rfl | ⟨1, _⟩ => rfl)

/-- The attention column repeated across the 256 columns. -/
theorem attn_across {α : Type} (v : S2048x1.Idx → α) (h : S2048x1.Broadcasts S2048x256) (p : Fin 2048) (q : Fin 256) :
    broadcastTo S2048x256 v h (ix2 p q) = v (ix2 p 0) :=
  broadcastTo_apply v h (ix2 p q) (ix2 p 0) (fun a => by match a with | ⟨0, _⟩ => rfl | ⟨1, _⟩ => rfl)

/-- Columns 0…255 of a wide product. -/
theorem wide_band_0 {α : Type} (v : S2048x768.Idx → α) (h : S2048x768.Slices ![0, 0] S2048x256) (p : Fin 2048) (q : Fin 256) :
    extractStridedSlice S2048x256 ![0, 0] v h (ix2 p q) = v (ix2 p (band 0 q (by decide))) :=
  extractStridedSlice_apply ![0, 0] v h (ix2 p q) (ix2 p (band 0 q (by decide)))
    (fun a => by match a with | ⟨0, _⟩ => exact (Nat.zero_add _).symm | ⟨1, _⟩ => rfl)
/-- Columns 0…255 of the packed bias row. -/
theorem bias_band_0 {α : Type} (v : S1x768.Idx → α) (h : S1x768.Slices ![0, 0] S1x256) (q : Fin 256) :
    extractStridedSlice S1x256 ![0, 0] v h (ix2 0 q) = v (ix2 0 (band 0 q (by decide))) :=
  extractStridedSlice_apply ![0, 0] v h (ix2 0 q) (ix2 0 (band 0 q (by decide)))
    (fun a => by match a with | ⟨0, _⟩ => exact (Nat.zero_add _).symm | ⟨1, _⟩ => rfl)
/-- Columns 256…511 of a wide product. -/
theorem wide_band_256 {α : Type} (v : S2048x768.Idx → α) (h : S2048x768.Slices ![0, 256] S2048x256) (p : Fin 2048) (q : Fin 256) :
    extractStridedSlice S2048x256 ![0, 256] v h (ix2 p q) = v (ix2 p (band 256 q (by decide))) :=
  extractStridedSlice_apply ![0, 256] v h (ix2 p q) (ix2 p (band 256 q (by decide)))
    (fun a => by match a with | ⟨0, _⟩ => exact (Nat.zero_add _).symm | ⟨1, _⟩ => rfl)
/-- Columns 256…511 of the packed bias row. -/
theorem bias_band_256 {α : Type} (v : S1x768.Idx → α) (h : S1x768.Slices ![0, 256] S1x256) (q : Fin 256) :
    extractStridedSlice S1x256 ![0, 256] v h (ix2 0 q) = v (ix2 0 (band 256 q (by decide))) :=
  extractStridedSlice_apply ![0, 256] v h (ix2 0 q) (ix2 0 (band 256 q (by decide)))
    (fun a => by match a with | ⟨0, _⟩ => exact (Nat.zero_add _).symm | ⟨1, _⟩ => rfl)
/-- Columns 512…767 of a wide product. -/
theorem wide_band_512 {α : Type} (v : S2048x768.Idx → α) (h : S2048x768.Slices ![0, 512] S2048x256) (p : Fin 2048) (q : Fin 256) :
    extractStridedSlice S2048x256 ![0, 512] v h (ix2 p q) = v (ix2 p (band 512 q (by decide))) :=
  extractStridedSlice_apply ![0, 512] v h (ix2 p q) (ix2 p (band 512 q (by decide)))
    (fun a => by match a with | ⟨0, _⟩ => exact (Nat.zero_add _).symm | ⟨1, _⟩ => rfl)
/-- Columns 512…767 of the packed bias row. -/
theorem bias_band_512 {α : Type} (v : S1x768.Idx → α) (h : S1x768.Slices ![0, 512] S1x256) (q : Fin 256) :
    extractStridedSlice S1x256 ![0, 512] v h (ix2 0 q) = v (ix2 0 (band 512 q (by decide))) :=
  extractStridedSlice_apply ![0, 512] v h (ix2 0 q) (ix2 0 (band 512 q (by decide)))
    (fun a => by match a with | ⟨0, _⟩ => exact (Nat.zero_add _).symm | ⟨1, _⟩ => rfl)

/-- Row `p` of a tile against column `c` of a packed matrix. -/
def rowdot (X : S2048x256.Idx → EReal) (W : S256x768.Idx → EReal) (p : Fin 2048) (c : Fin 768) : EReal :=
  ∑ k : Fin 256, X (ix2 p k) * W (ix2 k c)

/-- The operand positions of the wide product: output entry (p, c), summation index k ↦ (p, k) on the left, (k, c) on the right. -/
theorem left_row (i : S2048x768.Idx) (z : dot_S2048x256_S256x768_S2048x768_1_0_0_1_n_n.contr.Idx) : (dot_S2048x256_S256x768_S2048x768_1_0_0_1_n_n.lhsIdx i z 0).val = (i 0).val := by
  unfold DotDims.lhsIdx
  rw [dif_neg (show ¬(0 : Fin S2048x256.rank) ∈ dot_S2048x256_S256x768_S2048x768_1_0_0_1_n_n.lhsBatch by decide),
    dif_pos (show (0 : Fin S2048x256.rank) ∈ dot_S2048x256_S256x768_S2048x768_1_0_0_1_n_n.lhsNonContracting by decide)]
  rfl
theorem left_col (i : S2048x768.Idx) (z : dot_S2048x256_S256x768_S2048x768_1_0_0_1_n_n.contr.Idx) : (dot_S2048x256_S256x768_S2048x768_1_0_0_1_n_n.lhsIdx i z 1).val = (z ⟨0, by decide⟩).val :=
  dot_S2048x256_S256x768_S2048x768_1_0_0_1_n_n.lhsIdx_val_of_single rfl i z
theorem right_row (i : S2048x768.Idx) (z : dot_S2048x256_S256x768_S2048x768_1_0_0_1_n_n.contr.Idx) : (dot_S2048x256_S256x768_S2048x768_1_0_0_1_n_n.rhsIdx i z 0).val = (z ⟨0, by decide⟩).val :=
  dot_S2048x256_S256x768_S2048x768_1_0_0_1_n_n.rhsIdx_val_of_single rfl i z
theorem right_col (i : S2048x768.Idx) (z : dot_S2048x256_S256x768_S2048x768_1_0_0_1_n_n.contr.Idx) : (dot_S2048x256_S256x768_S2048x768_1_0_0_1_n_n.rhsIdx i z 1).val = (i 1).val := by
  unfold DotDims.rhsIdx
  rw [dif_neg (show ¬(1 : Fin S256x768.rank) ∈ dot_S2048x256_S256x768_S2048x768_1_0_0_1_n_n.rhsBatch by decide),
    dif_pos (show (1 : Fin S256x768.rank) ∈ dot_S2048x256_S256x768_S2048x768_1_0_0_1_n_n.rhsNonContracting by decide)]
  rfl

/-- The matrix unit's product into a zero accumulator is that sum. -/
theorem wide_product (L : FVec Ideal S2048x256 .bf16) (R : FVec Ideal S256x768 .bf16) (p : Fin 2048) (c : Fin 768) :
    matmul dot_S2048x256_S256x768_S2048x768_1_0_0_1_n_n none L R (constant (F := Ideal) S2048x768 .f32 0x00000000#32) (ix2 p c)
      = rowdot L R p c := by
  unfold rowdot
  simp only [matmul]
  rw [Ideal.matmul_constant_zero_apply, ← Equiv.sum_comp (contrEquiv1 dot_S2048x256_S256x768_S2048x768_1_0_0_1_n_n 256 rfl rfl).symm]
  refine Finset.sum_congr rfl fun k _ => ?_
  have hk := contrEquiv1_symm_val dot_S2048x256_S256x768_S2048x768_1_0_0_1_n_n 256 rfl rfl k
  have el : dot_S2048x256_S256x768_S2048x768_1_0_0_1_n_n.lhsIdx (ix2 p c) ((contrEquiv1 dot_S2048x256_S256x768_S2048x768_1_0_0_1_n_n 256 rfl rfl).symm k) = ix2 p k :=
    funext fun a => Fin.ext (by
      match a with
      | ⟨0, _⟩ => exact left_row _ _
      | ⟨1, _⟩ => exact (left_col _ _).trans hk)
  have er : dot_S2048x256_S256x768_S2048x768_1_0_0_1_n_n.rhsIdx (ix2 p c) ((contrEquiv1 dot_S2048x256_S256x768_S2048x768_1_0_0_1_n_n 256 rfl rfl).symm k) = ix2 k c :=
    funext fun a => Fin.ext (by
      match a with
      | ⟨0, _⟩ => exact (right_row _ _).trans hk
      | ⟨1, _⟩ => exact right_col _ _)
  rw [el, er]

/-! ## The step's result at one entry -/

/-- Entry (p, q) of what a step stores, in terms of the step's tiles and the packed arrays. -/
theorem step_entry (X H : Vec Ideal S2048x256 .f32) (A : Vec Ideal S2048x1 .f32) (W U : Vec Ideal S256x768 .bf16)
    (B : Vec Ideal S1x768 .f32) (p : Fin 2048) (q : Fin 256) :
    k0_pay1 (F := Ideal) X H A W U B (ix2 p q)
      = (1 - A (ix2 p 0) * Ideal.logistic (rowdot X W p (band 0 q (by decide)) + rowdot H U p (band 0 q (by decide)) + B (ix2 0 (band 0 q (by decide))))) * H (ix2 p q)
        + A (ix2 p 0) * Ideal.logistic (rowdot X W p (band 0 q (by decide)) + rowdot H U p (band 0 q (by decide)) + B (ix2 0 (band 0 q (by decide))))
          * Ideal.tanh (rowdot X W p (band 512 q (by decide))
              + Ideal.logistic (rowdot X W p (band 256 q (by decide)) + rowdot H U p (band 256 q (by decide)) + B (ix2 0 (band 256 q (by decide))))
                * rowdot H U p (band 512 q (by decide))
              + B (ix2 0 (band 512 q (by decide)))) := by
  unfold k0_pay1
  simp only [addf_apply, mulf_apply, subf_apply, broadcast_apply, logistic_at, tanh_at, bias_down, attn_across,
    wide_band_0, wide_band_256, wide_band_512, bias_band_0, bias_band_256, bias_band_512, shapeCast_self, wide_product,
    Ideal.ofBits_def, one_word]
  rfl

/-- When the step's tiles are rows of the arguments (row `p` of X and H is row `r` of x and h, entry `p` of A is entry
    `r` of a) and the packed arrays hold the six matrices and the three bias rows band by band, entry (p, q) of the
    step's result is entry (r, q) of the cell. -/
theorem step_is_cell (x h : Batch.Idx → EReal) (a : Column.Idx → EReal)
    (Wu Uu : Square.Idx → EReal) (bu : BiasRow.Idx → EReal)
    (Wr Ur : Square.Idx → EReal) (br : BiasRow.Idx → EReal)
    (Wh Uh : Square.Idx → EReal) (bh : BiasRow.Idx → EReal)
    (X H : Vec Ideal S2048x256 .f32) (A : Vec Ideal S2048x1 .f32) (W U : Vec Ideal S256x768 .bf16) (B : Vec Ideal S1x768 .f32)
    (r : Fin 65536) (p : Fin 2048) (q : Fin 256)
    (hX : ∀ k : Fin 256, X (ix2 p k) = x (ix2 r k)) (hH : ∀ k : Fin 256, H (ix2 p k) = h (ix2 r k))
    (hA : A (ix2 p 0) = a (ix2 r 0))
    (hWu : ∀ k : Fin 256, W (ix2 k (band 0 q (by decide))) = Wu (ix2 k q))
    (hWr : ∀ k : Fin 256, W (ix2 k (band 256 q (by decide))) = Wr (ix2 k q))
    (hWh : ∀ k : Fin 256, W (ix2 k (band 512 q (by decide))) = Wh (ix2 k q))
    (hUu : ∀ k : Fin 256, U (ix2 k (band 0 q (by decide))) = Uu (ix2 k q))
    (hUr : ∀ k : Fin 256, U (ix2 k (band 256 q (by decide))) = Ur (ix2 k q))
    (hUh : ∀ k : Fin 256, U (ix2 k (band 512 q (by decide))) = Uh (ix2 k q))
    (hbu : B (ix2 0 (band 0 q (by decide))) = bu (ix2 0 q))
    (hbr : B (ix2 0 (band 256 q (by decide))) = br (ix2 0 q))
    (hbh : B (ix2 0 (band 512 q (by decide))) = bh (ix2 0 q)) :
    k0_pay1 (F := Ideal) X H A W U B (ix2 p q) = entry x h a Wu Uu bu Wr Ur br Wh Uh bh r q := by
  rw [step_entry]
  unfold entry proj rowdot
  simp only [hX, hH, hA, hWu, hWr, hWh, hUu, hUr, hUh, hbu, hbr, hbh]

/-- Three matrices packed side by side, read in each band. -/
theorem packed_bands {α : Type} (M0 M1 M2 : S256x256.Idx → α)
    (h : Shape.Concatenates [S256x256, S256x256, S256x256] S256x768 1) (k : Fin 256) (q : Fin 256) :
    concatenate S256x768 1 [⟨S256x256, M0⟩, ⟨S256x256, M1⟩, ⟨S256x256, M2⟩] h (ix2 k (band 0 q (by decide))) = M0 (ix2 k q)
    ∧ concatenate S256x768 1 [⟨S256x256, M0⟩, ⟨S256x256, M1⟩, ⟨S256x256, M2⟩] h (ix2 k (band 256 q (by decide))) = M1 (ix2 k q)
    ∧ concatenate S256x768 1 [⟨S256x256, M0⟩, ⟨S256x256, M1⟩, ⟨S256x256, M2⟩] h (ix2 k (band 512 q (by decide))) = M2 (ix2 k q) := by
  refine ⟨?_, ?_, ?_⟩
  · exact concatenate_apply_piece (t := S256x768) 1 [⟨S256x256, M0⟩, ⟨S256x256, M1⟩, ⟨S256x256, M2⟩] h _ 0 (by simp) S256x256 M0 rfl rfl 0 rfl (ix2 k q)
      (fun b hb => by match b with | ⟨0, _⟩ => rfl | ⟨1, _⟩ => exact absurd rfl hb) rfl
  · exact concatenate_apply_piece (t := S256x768) 1 [⟨S256x256, M0⟩, ⟨S256x256, M1⟩, ⟨S256x256, M2⟩] h _ 1 (by simp) S256x256 M1 rfl rfl 256 rfl (ix2 k q)
      (fun b hb => by match b with | ⟨0, _⟩ => rfl | ⟨1, _⟩ => exact absurd rfl hb) rfl
  · exact concatenate_apply_piece (t := S256x768) 1 [⟨S256x256, M0⟩, ⟨S256x256, M1⟩, ⟨S256x256, M2⟩] h _ 2 (by simp) S256x256 M2 rfl rfl 512 rfl (ix2 k q)
      (fun b hb => by match b with | ⟨0, _⟩ => rfl | ⟨1, _⟩ => exact absurd rfl hb) rfl

/-- Three bias rows packed side by side, read in each band. -/
theorem packed_bias_bands {α : Type} (b0 b1 b2 : S1x256.Idx → α)
    (h : Shape.Concatenates [S1x256, S1x256, S1x256] S1x768 1) (q : Fin 256) :
    concatenate S1x768 1 [⟨S1x256, b0⟩, ⟨S1x256, b1⟩, ⟨S1x256, b2⟩] h (ix2 0 (band 0 q (by decide))) = b0 (ix2 0 q)
    ∧ concatenate S1x768 1 [⟨S1x256, b0⟩, ⟨S1x256, b1⟩, ⟨S1x256, b2⟩] h (ix2 0 (band 256 q (by decide))) = b1 (ix2 0 q)
    ∧ concatenate S1x768 1 [⟨S1x256, b0⟩, ⟨S1x256, b1⟩, ⟨S1x256, b2⟩] h (ix2 0 (band 512 q (by decide))) = b2 (ix2 0 q) := by
  refine ⟨?_, ?_, ?_⟩
  · exact concatenate_apply_piece (t := S1x768) 1 [⟨S1x256, b0⟩, ⟨S1x256, b1⟩, ⟨S1x256, b2⟩] h _ 0 (by simp) S1x256 b0 rfl rfl 0 rfl (ix2 0 q)
      (fun b hb => by match b with | ⟨0, _⟩ => rfl | ⟨1, _⟩ => exact absurd rfl hb) rfl
  · exact concatenate_apply_piece (t := S1x768) 1 [⟨S1x256, b0⟩, ⟨S1x256, b1⟩, ⟨S1x256, b2⟩] h _ 1 (by simp) S1x256 b1 rfl rfl 256 rfl (ix2 0 q)
      (fun b hb => by match b with | ⟨0, _⟩ => rfl | ⟨1, _⟩ => exact absurd rfl hb) rfl
  · exact concatenate_apply_piece (t := S1x768) 1 [⟨S1x256, b0⟩, ⟨S1x256, b1⟩, ⟨S1x256, b2⟩] h _ 2 (by simp) S1x256 b2 rfl rfl 512 rfl (ix2 0 q)
      (fun b hb => by match b with | ⟨0, _⟩ => rfl | ⟨1, _⟩ => exact absurd rfl hb) rfl

end Cert.KernelIdeal.Tile

end
-- ==== Proof.IdealWhole.lean ====
/-
  The idealized kernel computes the gated cell.

  Step t of the grid stores rows 2048·t … 2048·t + 2047 of the result. Its tiles of x, h and a are the same rows of
  those arguments; its packed matrices are the three input-side (state-side) weight matrices side by side, and its
  packed bias the three bias rows side by side, because that is what the program builds before the grid starts and
  narrowing to the matrix unit's format changes nothing over the extended reals. So what step t writes back is rows
  2048·t … of the cell's new state, and the 32 steps between them write every row.
-/
import proofs.«178404_j29214367547613_2_alg».proof.Proof.IdealRun
import proofs.«178404_j29214367547613_2_alg».proof.Proof.IdealTile
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.KernelIdeal.Entry Cert.KernelIdeal.Run Cert.KernelIdeal.Tile GatedCell

variable (m : (ℓ : Loc nD τ sig) → Buf (Elt Ideal) ℓ) (ρ : Dev nD → PrngReg)

/-- The cell's new state of the twelve arguments as core `c` was launched with them. -/
abbrev cellOf (c : Dev nD) : S65536x256.Idx → EReal :=
  newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## What the grid finds in the packed arrays -/

theorem packed_W (c : Dev nD) : (atEntry m c main_v1 : S256x768.Idx → EReal)
    = truncf (F := Ideal) .bf16 (concatenate S256x768 1 [⟨S256x256, (m ((c : Thread nD τ).loc main_arg3))⟩, ⟨S256x256, (m ((c : Thread nD τ).loc main_arg6))⟩, ⟨S256x256, (m ((c : Thread nD τ).loc main_arg9))⟩]
        concatenates_S256x256_S256x256_S256x256_S256x768_d1) bitsLt_bf16_f32 := by
  dsimp only [atEntry, hostOps0]; after_results; rfl

theorem packed_U (c : Dev nD) : (atEntry m c main_v3 : S256x768.Idx → EReal)
    = truncf (F := Ideal) .bf16 (concatenate S256x768 1 [⟨S256x256, (m ((c : Thread nD τ).loc main_arg4))⟩, ⟨S256x256, (m ((c : Thread nD τ).loc main_arg7))⟩, ⟨S256x256, (m ((c : Thread nD τ).loc main_arg10))⟩]
        concatenates_S256x256_S256x256_S256x256_S256x768_d1) bitsLt_bf16_f32 := by
  dsimp only [atEntry, hostOps0]; after_results; rfl

theorem packed_b (c : Dev nD) : (atEntry m c main_v4 : S1x768.Idx → EReal)
    = concatenate S1x768 1 [⟨S1x256, (m ((c : Thread nD τ).loc main_arg5))⟩, ⟨S1x256, (m ((c : Thread nD τ).loc main_arg8))⟩, ⟨S1x256, (m ((c : Thread nD τ).loc main_arg11))⟩]
        concatenates_S1x256_S1x256_S1x256_S1x768_d1 := by
  dsimp only [atEntry, hostOps0]; after_results; rfl

/-! ## Where each tile sits -/

/-- The tiles of x, h, a and of the result move down one tile per step; the packed arrays are one tile each. -/
theorem tile_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem steps_lt (t : Fin cfg0.N) : t.val < 32 := lt_of_lt_of_eq t.isLt N_0

/-- Row `p` of step `t`'s tiles is row 2048·t + p of the batch. -/
def rowOf (t : Fin cfg0.N) (p : Fin 2048) : Fin 65536 := ⟨t.val * 2048 + p.val, by have := steps_lt t; have := p.isLt; omega⟩

theorem at_x (t : Fin cfg0.N) (p : Fin 2048) (k : Fin 256) : ((cfg0.win 0).blk t).view.emb (ix2 p k) = ix2 (rowOf t p) k := by
  obtain ⟨e00, e01, -⟩ := tile_positions t
  funext a; apply Fin.ext
  match a with
  | ⟨0, _⟩ => show win0_0.index t (0 : Fin 2) * 2048 + 1 * p.val = t.val * 2048 + p.val; omega
  | ⟨1, _⟩ => show win0_0.index t (1 : Fin 2) * 256 + 1 * k.val = k.val; omega
theorem at_h (t : Fin cfg0.N) (p : Fin 2048) (k : Fin 256) : ((cfg0.win 1).blk t).view.emb (ix2 p k) = ix2 (rowOf t p) k := by
  obtain ⟨-, -, e10, e11, -⟩ := tile_positions t
  funext a; apply Fin.ext
  match a with
  | ⟨0, _⟩ => show win0_1.index t (0 : Fin 2) * 2048 + 1 * p.val = t.val * 2048 + p.val; omega
  | ⟨1, _⟩ => show win0_1.index t (1 : Fin 2) * 256 + 1 * k.val = k.val; omega
theorem at_a (t : Fin cfg0.N) (p : Fin 2048) : ((cfg0.win 2).blk t).view.emb (ix2 p 0) = ix2 (rowOf t p) 0 := by
  obtain ⟨-, -, -, -, e20, e21, -⟩ := tile_positions t
  funext a; apply Fin.ext
  match a with
  | ⟨0, _⟩ => show win0_2.index t (0 : Fin 2) * 2048 + 1 * p.val = t.val * 2048 + p.val; omega
  | ⟨1, _⟩ => show win0_2.index t (1 : Fin 2) * 1 + 1 * 0 = 0; omega
theorem at_W (t : Fin cfg0.N) (k : Fin 256) (z : Fin 768) : ((cfg0.win 3).blk t).view.emb (ix2 k z) = ix2 k z := by
  obtain ⟨-, -, -, -, -, -, e30, e31, -⟩ := tile_positions t
  funext a; apply Fin.ext
  match a with
  | ⟨0, _⟩ => show win0_3.index t (0 : Fin 2) * 256 + 1 * k.val = k.val; omega
  | ⟨1, _⟩ => show win0_3.index t (1 : Fin 2) * 768 + 1 * z.val = z.val; omega
theorem at_U (t : Fin cfg0.N) (k : Fin 256) (z : Fin 768) : ((cfg0.win 4).blk t).view.emb (ix2 k z) = ix2 k z := by
  obtain ⟨-, -, -, -, -, -, -, -, e40, e41, -⟩ := tile_positions t
  funext a; apply Fin.ext
  match a with
  | ⟨0, _⟩ => show win0_4.index t (0 : Fin 2) * 256 + 1 * k.val = k.val; omega
  | ⟨1, _⟩ => show win0_4.index t (1 : Fin 2) * 768 + 1 * z.val = z.val; omega
theorem at_b (t : Fin cfg0.N) (z : Fin 768) : ((cfg0.win 5).blk t).view.emb (ix2 0 z) = ix2 0 z := by
  obtain ⟨-, -, -, -, -, -, -, -, -, -, e50, e51, -⟩ := tile_positions t
  funext a; apply Fin.ext
  match a with
  | ⟨0, _⟩ => show win0_5.index t (0 : Fin 2) * 1 + 1 * 0 = 0; omega
  | ⟨1, _⟩ => show win0_5.index t (1 : Fin 2) * 768 + 1 * z.val = z.val; omega
theorem at_out (t : Fin cfg0.N) (p : Fin 2048) (q : Fin 256) : ((cfg0.win 6).blk t).view.emb (ix2 p q) = ix2 (rowOf t p) q := by
  obtain ⟨-, -, -, -, -, -, -, -, -, -, -, -, e60, e61⟩ := tile_positions t
  funext a; apply Fin.ext
  match a with
  | ⟨0, _⟩ => show win0_6.index t (0 : Fin 2) * 2048 + 1 * p.val = t.val * 2048 + p.val; omega
  | ⟨1, _⟩ => show win0_6.index t (1 : Fin 2) * 256 + 1 * q.val = q.val; omega

/-! ## What a step writes back -/

theorem written_back (c : Dev nD) (t : Fin cfg0.N) :
    (dats m 0 c).flushed 6 t = ((cfg0.win 6).blk t).view.read (Elt Ideal) (cellOf m c) := by
  show (cfg0.win 6).cut (grid0.coords t) ((dats m 0 c).after 6 t) = _
  rw [after_out]
  funext y
  obtain ⟨p, q, rfl⟩ : ∃ (p : Fin 2048) (q : Fin 256), y = ix2 p q := ⟨y 0, y 1, eq_ix2 y⟩
  show updated m c t (ix2 p q) = cellOf m c (((cfg0.win 6).blk t).view.emb (ix2 p q))
  refine Eq.trans ?_ (congrArg (cellOf m c) (at_out t p q)).symm
  show k0_pay1 (F := Ideal) (tile m c 0 t) (tile m c 1 t) (tile m c 2 t) (tile m c 3 t) (tile m c 4 t) (tile m c 5 t) (ix2 p q)
    = entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (rowOf t p) q
  refine step_is_cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (tile m c 0 t) (tile m c 1 t) (tile m c 2 t) (tile m c 3 t) (tile m c 4 t) (tile m c 5 t) (rowOf t p) p q
    ?_ ?_ ?_ ?_ ?_ ?_ ?_ ?_ ?_ ?_ ?_ ?_
  · intro k
    show atEntry m c main_arg0 (((cfg0.win 0).blk t).view.emb (ix2 p k)) = _
    rw [atEntry_arg0, at_x]
  · intro k
    show atEntry m c main_arg1 (((cfg0.win 1).blk t).view.emb (ix2 p k)) = _
    rw [atEntry_arg1, at_h]
  · show atEntry m c main_arg2 (((cfg0.win 2).blk t).view.emb (ix2 p 0)) = _
    rw [atEntry_arg2, at_a]
  · intro k
    show atEntry m c main_v1 (((cfg0.win 3).blk t).view.emb (ix2 k (band 0 q (by decide)))) = _
    rw [at_W, packed_W]
    exact (packed_bands _ _ _ concatenates_S256x256_S256x256_S256x256_S256x768_d1 k q).1
  · intro k
    show atEntry m c main_v1 (((cfg0.win 3).blk t).view.emb (ix2 k (band 256 q (by decide)))) = _
    rw [at_W, packed_W]
    exact (packed_bands _ _ _ concatenates_S256x256_S256x256_S256x256_S256x768_d1 k q).2.1
  · intro k
    show atEntry m c main_v1 (((cfg0.win 3).blk t).view.emb (ix2 k (band 512 q (by decide)))) = _
    rw [at_W, packed_W]
    exact (packed_bands _ _ _ concatenates_S256x256_S256x256_S256x256_S256x768_d1 k q).2.2
  · intro k
    show atEntry m c main_v3 (((cfg0.win 4).blk t).view.emb (ix2 k (band 0 q (by decide)))) = _
    rw [at_U, packed_U]
    exact (packed_bands _ _ _ concatenates_S256x256_S256x256_S256x256_S256x768_d1 k q).1
  · intro k
    show atEntry m c main_v3 (((cfg0.win 4).blk t).view.emb (ix2 k (band 256 q (by decide)))) = _
    rw [at_U, packed_U]
    exact (packed_bands _ _ _ concatenates_S256x256_S256x256_S256x256_S256x768_d1 k q).2.1
  · intro k
    show atEntry m c main_v3 (((cfg0.win 4).blk t).view.emb (ix2 k (band 512 q (by decide)))) = _
    rw [at_U, packed_U]
    exact (packed_bands _ _ _ concatenates_S256x256_S256x256_S256x256_S256x768_d1 k q).2.2
  · show atEntry m c main_v4 (((cfg0.win 5).blk t).view.emb (ix2 0 (band 0 q (by decide)))) = _
    rw [at_b, packed_b]
    exact (packed_bias_bands _ _ _ concatenates_S1x256_S1x256_S1x256_S1x768_d1 q).1
  · show atEntry m c main_v4 (((cfg0.win 5).blk t).view.emb (ix2 0 (band 256 q (by decide)))) = _
    rw [at_b, packed_b]
    exact (packed_bias_bands _ _ _ concatenates_S1x256_S1x256_S1x256_S1x768_d1 q).2.1
  · show atEntry m c main_v4 (((cfg0.win 5).blk t).view.emb (ix2 0 (band 512 q (by decide)))) = _
    rw [at_b, packed_b]
    exact (packed_bias_bands _ _ _ concatenates_S1x256_S1x256_S1x256_S1x768_d1 q).2.2

/-! ## Every row is written -/

/-- An index of the result lies in step `t`'s tile exactly when each coordinate lies in the tile's range. -/
theorem in_tile (t : Fin cfg0.N) (i : S65536x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_v5).slice (win0_6.rect t)).set ↔ _
  rw [View.set_slice_whole, Rect.mem_set_unit]
  exact Iff.rfl

/-- Row r is written by step r / 2048. -/
theorem every_row_written (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  let t : Fin cfg0.N := ⟨(i 0).val / 2048, by rw [show cfg0.N = 32 from N_0]; omega⟩
  obtain ⟨-, -, -, -, -, -, -, -, -, -, -, -, e60, e61⟩ := tile_positions t
  have ht : t.val = (i 0).val / 2048 := rfl
  refine ⟨t, flush0_6 t, ?_⟩
  rw [in_tile]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 256 ≤ (i 1).val ∧ (i 1).val < win0_6.index t (1 : Fin 2) * 256 + 256; omega

/-- After the 32 steps the result array holds the cell's new state. -/
theorem result_is_cell (c : Dev nD) : (dats m 0 c).arrAt 6 cfg0.N = cellOf m c :=
  (dats m 0 c).arrAt_eq_of_cover 6 (cellOf m c) (fun t _ => written_back m c t) every_row_written

/-! ## The run -/

/-- Every weakly fair execution of the idealized kernel terminates without a fault, with the result array at the
    cell's new state of the arguments and the twelve arguments unchanged. -/
theorem run : θ_run defs (onTc (τ := τ) (main (F := Ideal))) ⟨m, fun _ => 0, ρ⟩ (fun r => ∀ c : Dev nD,
      r.2.mem ((c.tc : Thread nD τ).loc main_v5) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).1 6).trans (result_is_cell m c), post_keeps_arguments m r h c⟩)
    (Cert.KernelIdeal.Run.run m ρ)

end Cert.KernelIdeal.Whole

end
-- ==== Proof.RefCell.lean ====
/-
  The reference program computes the gated cell.

  The reference is a straight line of 41 whole-array operations: six matrix products, the three bias rows repeated
  down the batch, the two logistic gates spelled as 1 / (1 + exp(−z)), the hyperbolic tangent, the attention column
  repeated across the row, and the final blend. Read at one entry (r, j), each operation reads its operands at (r, j),
  except the products (a sum over the shared axis), the bias rows (read at (0, j)) and the attention column (read at
  (r, 0)). Composing these readings gives the cell's formula literally.
-/
import proofs.«178404_j29214367547613_2_alg».proof.Proof.Gen.ReferenceIdeal.Read
import proofs.«178404_j29214367547613_2_alg».proof.Proof.Cell

noncomputable section

namespace Cert.ReferenceIdeal.RefCell

open Cert.ReferenceIdeal Cert.ReferenceIdeal.Read Idealize.ShloMosaic Idealize.ShloMosaic.ValueIdx GatedCell

/-! The operand positions the generated readings use, as coordinates. -/
theorem left_v0 (i : S65536x256.Idx) (k : Fin 256) : lidx_main_v0 i k = ix2 (i 0) k :=
  funext fun a => Fin.ext (by match a with | ⟨0, _⟩ => rfl | ⟨1, _⟩ => rfl)
theorem right_v0 (i : S65536x256.Idx) (k : Fin 256) : ridx_main_v0 i k = ix2 k (i 1) :=
  funext fun a => Fin.ext (by match a with | ⟨0, _⟩ => rfl | ⟨1, _⟩ => rfl)
theorem left_v1 (i : S65536x256.Idx) (k : Fin 256) : lidx_main_v1 i k = ix2 (i 0) k :=
  funext fun a => Fin.ext (by match a with | ⟨0, _⟩ => rfl | ⟨1, _⟩ => rfl)
theorem right_v1 (i : S65536x256.Idx) (k : Fin 256) : ridx_main_v1 i k = ix2 k (i 1) :=
  funext fun a => Fin.ext (by match a with | ⟨0, _⟩ => rfl | ⟨1, _⟩ => rfl)
theorem left_v11 (i : S65536x256.Idx) (k : Fin 256) : lidx_main_v11 i k = ix2 (i 0) k :=
  funext fun a => Fin.ext (by match a with | ⟨0, _⟩ => rfl | ⟨1, _⟩ => rfl)
theorem right_v11 (i : S65536x256.Idx) (k : Fin 256) : ridx_main_v11 i k = ix2 k (i 1) :=
  funext fun a => Fin.ext (by match a with | ⟨0, _⟩ => rfl | ⟨1, _⟩ => rfl)
theorem left_v12 (i : S65536x256.Idx) (k : Fin 256) : lidx_main_v12 i k = ix2 (i 0) k :=
  funext fun a => Fin.ext (by match a with | ⟨0, _⟩ => rfl | ⟨1, _⟩ => rfl)
theorem right_v12 (i : S65536x256.Idx) (k : Fin 256) : ridx_main_v12 i k = ix2 k (i 1) :=
  funext fun a => Fin.ext (by match a with | ⟨0, _⟩ => rfl | ⟨1, _⟩ => rfl)
theorem left_v22 (i : S65536x256.Idx) (k : Fin 256) : lidx_main_v22 i k = ix2 (i 0) k :=
  funext fun a => Fin.ext (by match a with | ⟨0, _⟩ => rfl | ⟨1, _⟩ => rfl)
theorem right_v22 (i : S65536x256.Idx) (k : Fin 256) : ridx_main_v22 i k = ix2 k (i 1) :=
  funext fun a => Fin.ext (by match a with | ⟨0, _⟩ => rfl | ⟨1, _⟩ => rfl)
theorem left_v23 (i : S65536x256.Idx) (k : Fin 256) : lidx_main_v23 i k = ix2 (i 0) k :=
  funext fun a => Fin.ext (by match a with | ⟨0, _⟩ => rfl | ⟨1, _⟩ => rfl)
theorem right_v23 (i : S65536x256.Idx) (k : Fin 256) : ridx_main_v23 i k = ix2 k (i 1) :=
  funext fun a => Fin.ext (by match a with | ⟨0, _⟩ => rfl | ⟨1, _⟩ => rfl)
theorem bias_v3 (i : S65536x256.Idx) : idx_main_v3 i = ix2 0 (i 1) :=
  funext fun a => Fin.ext (by match a with | ⟨0, _⟩ => rfl | ⟨1, _⟩ => rfl)
theorem bias_v14 (i : S65536x256.Idx) : idx_main_v14 i = ix2 0 (i 1) :=
  funext fun a => Fin.ext (by match a with | ⟨0, _⟩ => rfl | ⟨1, _⟩ => rfl)
theorem bias_v26 (i : S65536x256.Idx) : idx_main_v26 i = ix2 0 (i 1) :=
  funext fun a => Fin.ext (by match a with | ⟨0, _⟩ => rfl | ⟨1, _⟩ => rfl)
theorem attn_v29 (i : S65536x256.Idx) : idx_main_v29 i = ix2 (i 0) 0 :=
  funext fun a => Fin.ext (by match a with | ⟨0, _⟩ => rfl | ⟨1, _⟩ => rfl)

/-- The last stage of the reference, as a function of the twelve arguments, is the cell's new state. -/
theorem last_stage_is_cell
    (x0 x1 : (⟨S65536x256, .f32⟩ : BufTy).Contents (Elt Ideal)) (x2 : (⟨S65536x1, .f32⟩ : BufTy).Contents (Elt Ideal))
    (x3 x4 : (⟨S256x256, .f32⟩ : BufTy).Contents (Elt Ideal)) (x5 : (⟨S1x256, .f32⟩ : BufTy).Contents (Elt Ideal))
    (x6 x7 : (⟨S256x256, .f32⟩ : BufTy).Contents (Elt Ideal)) (x8 : (⟨S1x256, .f32⟩ : BufTy).Contents (Elt Ideal))
    (x9 x10 : (⟨S256x256, .f32⟩ : BufTy).Contents (Elt Ideal)) (x11 : (⟨S1x256, .f32⟩ : BufTy).Contents (Elt Ideal)) :
    val_main_v35 (F := Ideal) x0 x1 x2 x3 x4 x5 x6 x7 x8 x9 x10 x11 = newState x0 x1 x2 x3 x4 x5 x6 x7 x8 x9 x10 x11 := by
  funext i
  obtain ⟨r, j, rfl⟩ : ∃ (r : Fin 65536) (j : Fin 256), i = ix2 r j := ⟨i 0, i 1, eq_ix2 i⟩
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply,
    val_main_cst_apply, val_main_cst_0_apply, val_main_cst_1_apply, val_main_cst_2_apply, val_main_cst_3_apply]
  simp only [left_v0, right_v0, left_v1, right_v1, left_v11, right_v11, left_v12, right_v12, left_v22, right_v22, left_v23, right_v23, bias_v3, bias_v14, bias_v26, attn_v29,
    Ideal.addf_def, Ideal.subf_def, Ideal.mulf_def, Ideal.hostDivf_def, Ideal.hostNegf_def, Ideal.negf_def,
    Ideal.hostUnary_exp_def, Ideal.hostUnary_tanh_def, Ideal.ofBits_def, one_word, logistic_spelled]
  rfl

end Cert.ReferenceIdeal.RefCell

end
-- ==== Proof.lean ====
/-
  The attention-gated recurrent cell: the tiled kernel against the plain reference.

  Three programs are involved: the kernel as compiled, the same kernel read over the extended reals, and the reference
  read over the extended reals. Each runs to the end without a fault and leaves its twelve arguments unchanged. The
  idealization rewrote nothing, so it preserves the compiled kernel trivially. Over the extended reals both the kernel
  and the reference end with the cell's new state of their arguments (see Proof/Cell.lean for the formula): the kernel
  computes it tile by tile through two wide products against the packed weights, the reference through six products
  against the separate weights, and an entry of a wide product in the s-th band of columns is the same sum of 256
  products as the entry of the product with the s-th matrix. No property of the inputs is needed.
-/
import proofs.«178404_j29214367547613_2_alg».proof.Defs
import proofs.«178404_j29214367547613_2_alg».proof.Proof.Gen.Kernel
import proofs.«178404_j29214367547613_2_alg».proof.Proof.Gen.KernelIdeal
import proofs.«178404_j29214367547613_2_alg».proof.Proof.Gen.ReferenceIdeal
import proofs.«178404_j29214367547613_2_alg».proof.Proof.Gen.ReferenceIdeal.Run
import proofs.«178404_j29214367547613_2_alg».proof.Proof.Gen.ReferenceIdeal.Read
import proofs.«178404_j29214367547613_2_alg».proof.Proof.Gen.Pre_finite_inputs
import proofs.«178404_j29214367547613_2_alg».proof.Proof.BitsRun
import proofs.«178404_j29214367547613_2_alg».proof.Proof.IdealWhole
import proofs.«178404_j29214367547613_2_alg».proof.Proof.RefCell
import Idealize.ShloMosaic.Adequacy
import Idealize.ShloMosaic.Init

noncomputable section

namespace Cert.Proof

open Idealize.ShloMosaic Idealize.SL.Sem

/-- The compiled kernel runs to the end and keeps its arguments. -/
theorem compiled_runs : Cert.frame_Kernel := fun m ρ _ => Cert.Kernel.Run.arguments_kept m ρ

/-- So does the kernel read over the extended reals. -/
theorem idealized_runs : Cert.frame_KernelIdeal := fun m ρ _ => Cert.KernelIdeal.Run.arguments_kept m ρ

/-- So does the reference. -/
theorem reference_runs : Cert.frame_ReferenceIdeal := fun m ρ _ =>
  (θ_run Cert.ReferenceIdeal.defs _ _).mono (fun _ h c => (h c).2) (Cert.ReferenceIdeal.Value.run (F := Ideal) m ρ)

/-- From memories that agree on the twelve arguments, the kernel and the reference end with the same result: the
    cell's new state. -/
theorem same_result : Cert.algebraic_KernelIdeal_ReferenceIdeal := by
  intro m ρ m' ρ' _ hagree
  refine ⟨fun c => Cert.KernelIdeal.Whole.cellOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefCell.last_stage_is_cell]
  obtain ⟨a0, a1, a2, a3, a4, a5, a6, a7, a8, a9, a10, a11⟩ := hagree c
  rw [a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    compiled_runs, idealized_runs, reference_runs, trivial, same_result⟩

end Cert.Proof

end
